-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S65536x128 : Shape := ⟨2, ![65536, 128]⟩
abbrev S8x128x32 : Shape := ⟨3, ![8, 128, 32]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn {F : FTy → Type} [FloatOps F] (main_arg0 : FVec F S4096x128 .f32) (main_arg1 : IVec S4096 32) (main_arg2 : FVec F S65536x128 .f32) (main_arg3 : IVec S8x128x32 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  main_v8
-- ==== Kernel.lean ====
abbrev S4096x128 : Shape := ⟨2, ![4096, 128]⟩
abbrev S4096 : Shape := ⟨1, ![4096]⟩
abbrev S65536x128 : Shape := ⟨2, ![65536, 128]⟩
abbrev S8x128x32 : Shape := ⟨3, ![8, 128, 32]⟩
abbrev S128x32x128 : Shape := ⟨3, ![128, 32, 128]⟩
abbrev S1x128x32x128 : Shape := ⟨4, ![1, 128, 32, 128]⟩
abbrev S8x128x32x1 : Shape := ⟨4, ![8, 128, 32, 1]⟩
abbrev S_ : Shape := ⟨0, ![]⟩
abbrev S1 : Shape := ⟨1, ![1]⟩
abbrev S1x1x1x1 : Shape := ⟨4, ![1, 1, 1, 1]⟩
abbrev S8x128x32x128 : Shape := ⟨4, ![8, 128, 32, 128]⟩
abbrev S8x128x128 : Shape := ⟨3, ![8, 128, 128]⟩
abbrev S1024x128 : Shape := ⟨2, ![1024, 128]⟩
abbrev S1024 : Shape := ⟨1, ![1024]⟩
abbrev S1x1024 : Shape := ⟨2, ![1, 1024]⟩
abbrev S128x1024 : Shape := ⟨2, ![128, 1024]⟩
abbrev S4096x1 : Shape := ⟨2, ![4096, 1]⟩
abbrev S4096x1024 : Shape := ⟨2, ![4096, 1024]⟩
abbrev S1x128 : Shape := ⟨2, ![1, 128]⟩

abbrev nBuf : Space → Nat
  | .hbm => 43
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S65536x128, .f32⟩
  | .hbm, ⟨3, _⟩ => ⟨S8x128x32, .i32⟩
  | .hbm, ⟨4, _⟩ => ⟨S128x32x128, .f32⟩
  | .hbm, ⟨5, _⟩ => ⟨S1x128x32x128, .f32⟩
  | .hbm, ⟨6, _⟩ => ⟨S8x128x32x1, .i32⟩
  | .hbm, ⟨7, _⟩ => ⟨S_, .i32⟩
  | .hbm, ⟨8, _⟩ => ⟨S8x128x32x1, .i32⟩
  | .hbm, ⟨9, _⟩ => ⟨S8x128x32x1, .i1⟩
  | .hbm, ⟨10, _⟩ => ⟨S_, .i32⟩
  | .hbm, ⟨11, _⟩ => ⟨S8x128x32x1, .i32⟩
  | .hbm, ⟨12, _⟩ => ⟨S8x128x32x1, .i32⟩
  | .hbm, ⟨13, _⟩ => ⟨S8x128x32x1, .i32⟩
  | .hbm, ⟨14, _⟩ => ⟨S128x32x128, .f32⟩
  | .hbm, ⟨15, _⟩ => ⟨S1, .i32⟩
  | .hbm, ⟨16, _⟩ => ⟨S_, .i32⟩
  | .hbm, ⟨17, _⟩ => ⟨S8x128x32x1, .i32⟩
  | .hbm, ⟨18, _⟩ => ⟨S8x128x32x1, .i1⟩
  | .hbm, ⟨19, _⟩ => ⟨S1x1x1x1, .i32⟩
  | .hbm, ⟨20, _⟩ => ⟨S8x128x32x1, .i32⟩
  | .hbm, ⟨21, _⟩ => ⟨S8x128x32x1, .i1⟩
  | .hbm, ⟨22, _⟩ => ⟨S8x128x32x1, .i1⟩
  | .hbm, ⟨23, _⟩ => ⟨S_, .i1⟩
  | .hbm, ⟨24, _⟩ => ⟨S8x128x32, .i1⟩
  | .hbm, ⟨25, _⟩ => ⟨S8x128x32x128, .f32⟩
  | .hbm, ⟨26, _⟩ => ⟨S8x128x32x128, .i1⟩
  | .hbm, ⟨27, _⟩ => ⟨S_, .f32⟩
  | .hbm, ⟨28, _⟩ => ⟨S8x128x32x128, .f32⟩
  | .hbm, ⟨29, _⟩ => ⟨S8x128x32x128, .f32⟩
  | .hbm, ⟨30, _⟩ => ⟨S_, .f32⟩
  | .hbm, ⟨31, _⟩ => ⟨S8x128x128, .f32⟩
  | .hbm, ⟨32, _⟩ => ⟨S_, .f32⟩
  | .hbm, ⟨33, _⟩ => ⟨S8x128x128, .f32⟩
  | .hbm, ⟨34, _⟩ => ⟨S8x128x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1024x128, .bf16⟩
  | .hbm, ⟨41, _⟩ => ⟨S128x1024, .bf16⟩
  | .hbm, ⟨42, _⟩ => ⟨S65536x128, .f32⟩
  | .local _ .vmem, ⟨0, _⟩ => ⟨S4096x128, .f32⟩
  | .local _ .vmem, ⟨1, _⟩ => ⟨S4096x128, .f32⟩
  | .local _ .vmem, ⟨2, _⟩ => ⟨S128x1024, .bf16⟩
  | .local _ .vmem, ⟨3, _⟩ => ⟨S1x1024, .f32⟩
  | .local _ .vmem, ⟨4, _⟩ => ⟨S4096x128, .f32⟩
  | .local _ .vmem, ⟨5, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x128_S128x32x128 : S4096x128.ShapeCasts S128x32x128
  bcast_S128x32x128_S1x128x32x128_1_2_3 : S128x32x128.BroadcastsInDim S1x128x32x128 (![1, 2, 3] : Fin 3 → Fin S1x128x32x128.rank)
  bcast_S8x128x32_S8x128x32x1_0_1_2 : S8x128x32.BroadcastsInDim S8x128x32x1 (![0, 1, 2] : Fin 3 → Fin S8x128x32x1.rank)
  bcast_S_S8x128x32x1 : S_.BroadcastsInDim S8x128x32x1 (![] : Fin 0 → Fin S8x128x32x1.rank)
  shapeCasts_S1x128x32x128_S128x32x128 : S1x128x32x128.ShapeCasts S128x32x128
  bcast_S1_S1x1x1x1_3 : S1.BroadcastsInDim S1x1x1x1 (![3] : Fin 1 → Fin S1x1x1x1.rank)
  bcast_S1x1x1x1_S8x128x32x1_0_1_2_3 : S1x1x1x1.BroadcastsInDim S8x128x32x1 (![0, 1, 2, 3] : Fin 4 → Fin S8x128x32x1.rank)
  reducesTo_S8x128x32x1_S8x128x32_d3 : S8x128x32x1.ReducesTo [3] S8x128x32
  h_S_ : 0 < S_.numel
  bcast_S8x128x32_S8x128x32x128_0_1_2 : S8x128x32.BroadcastsInDim S8x128x32x128 (![0, 1, 2] : Fin 3 → Fin S8x128x32x128.rank)
  bcast_S_S8x128x32x128 : S_.BroadcastsInDim S8x128x32x128 (![] : Fin 0 → Fin S8x128x32x128.rank)
  reducesTo_S8x128x32x128_S8x128x128_d2 : S8x128x32x128.ReducesTo [2] S8x128x128
  bcast_S_S8x128x128 : S_.BroadcastsInDim S8x128x128 (![] : Fin 0 → Fin S8x128x128.rank)
  shapeCasts_S8x128x128_S1024x128 : S8x128x128.ShapeCasts S1024x128
  reducesTo_S1024x128_S1024_d1 : S1024x128.ReducesTo [1] S1024
  shapeCasts_S1024_S1x1024 : S1024.ShapeCasts S1x1024
  bitsLt_bf16_f32 : FTy.bits .bf16 < FTy.bits .f32
  transposes_S1024x128_S128x1024_1_0 : S1024x128.Transposes [1, 0] S128x1024
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S4096x1024_o0_0_S4096x128 : S4096x1024.Slices ![0, 0] S4096x128
  slices_S1x1024_o0_0_S1x128 : S1x1024.Slices ![0, 0] S1x128
  broadcasts_S4096x1_S4096x128 : S4096x1.Broadcasts S4096x128
  broadcasts_S1x128_S4096x128 : S1x128.Broadcasts S4096x128
  slices_S4096x1024_o0_128_S4096x128 : S4096x1024.Slices ![0, 128] S4096x128
  slices_S1x1024_o0_128_S1x128 : S1x1024.Slices ![0, 128] S1x128
  slices_S4096x1024_o0_256_S4096x128 : S4096x1024.Slices ![0, 256] S4096x128
  slices_S1x1024_o0_256_S1x128 : S1x1024.Slices ![0, 256] S1x128
  slices_S4096x1024_o0_384_S4096x128 : S4096x1024.Slices ![0, 384] S4096x128
  slices_S1x1024_o0_384_S1x128 : S1x1024.Slices ![0, 384] S1x128
  slices_S4096x1024_o0_512_S4096x128 : S4096x1024.Slices ![0, 512] S4096x128
  slices_S1x1024_o0_512_S1x128 : S1x1024.Slices ![0, 512] S1x128
  slices_S4096x1024_o0_640_S4096x128 : S4096x1024.Slices ![0, 640] S4096x128
  slices_S1x1024_o0_640_S1x128 : S1x1024.Slices ![0, 640] S1x128
  slices_S4096x1024_o0_768_S4096x128 : S4096x1024.Slices ![0, 768] S4096x128
  slices_S1x1024_o0_768_S1x128 : S1x1024.Slices ![0, 768] S1x128
  slices_S4096x1024_o0_896_S4096x128 : S4096x1024.Slices ![0, 896] S4096x128
  slices_S1x1024_o0_896_S1x128 : S1x1024.Slices ![0, 896] S1x128
  gather_S128x32x128_S8x128x32x1_S8x128x32x128_3_1_0_1_1_3_11128_wf : GatherDims.WF S128x32x128 S8x128x32x1 S8x128x32x128 [3] [1] [0] [1] [1] 3 ![1, 1, 128]
  dot_S4096x128_S128x1024_S4096x1024_1_0_0_1_n_n_wf : DotDims.WF S4096x128 S128x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)

variable [Facts₀]

def gather_S128x32x128_S8x128x32x1_S8x128x32x128_3_1_0_1_1_3_11128 : GatherDims S128x32x128 S8x128x32x1 S8x128x32x128 where
  offsetDims := [3]
  collapsedSliceDims := [1]
  operandBatchingDims := [0]
  startIndicesBatchingDims := [1]
  startIndexMap := [1]
  indexVectorDim := 3
  sliceSizes := ![1, 1, 128]
  wf := gather_S128x32x128_S8x128x32x1_S8x128x32x128_3_1_0_1_1_3_11128_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf

abbrev win0_0 : Pipeline.Window sig grid0 :=
  Pipeline.Window.ofSpec (Memref.whole main_arg2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S65536x128 : Shape := ⟨2, ![65536, 128]⟩
abbrev S8x128x32 : Shape := ⟨3, ![8, 128, 32]⟩
abbrev S128x32x128 : Shape := ⟨3, ![128, 32, 128]⟩
abbrev S1x128x32x128 : Shape := ⟨4, ![1, 128, 32, 128]⟩
abbrev S8x128x32x1 : Shape := ⟨4, ![8, 128, 32, 1]⟩
abbrev S_ : Shape := ⟨0, ![]⟩
abbrev S1 : Shape := ⟨1, ![1]⟩
abbrev S1x1x1x1 : Shape := ⟨4, ![1, 1, 1, 1]⟩
abbrev S8x128x32x128 : Shape := ⟨4, ![8, 128, 32, 128]⟩
abbrev S8x128x128 : Shape := ⟨3, ![8, 128, 128]⟩
abbrev S65536 : Shape := ⟨1, ![65536]⟩
abbrev S8x128 : Shape := ⟨2, ![8, 128]⟩
abbrev S8x128x65536 : Shape := ⟨3, ![8, 128, 65536]⟩
abbrev S8x65536x128 : Shape := ⟨3, ![8, 65536, 128]⟩
abbrev S1x65536x1 : Shape := ⟨3, ![1, 65536, 1]⟩
abbrev S8x1x128 : Shape := ⟨3, ![8, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S65536x128, .f32⟩
  | .hbm, ⟨3, _⟩ => ⟨S8x128x32, .i32⟩
  | .hbm, ⟨4, _⟩ => ⟨S128x32x128, .f32⟩
  | .hbm, ⟨5, _⟩ => ⟨S1x128x32x128, .f32⟩
  | .hbm, ⟨6, _⟩ => ⟨S8x128x32x1, .i32⟩
  | .hbm, ⟨7, _⟩ => ⟨S_, .i32⟩
  | .hbm, ⟨8, _⟩ => ⟨S8x128x32x1, .i32⟩
  | .hbm, ⟨9, _⟩ => ⟨S8x128x32x1, .i1⟩
  | .hbm, ⟨10, _⟩ => ⟨S_, .i32⟩
  | .hbm, ⟨11, _⟩ => ⟨S8x128x32x1, .i32⟩
  | .hbm, ⟨12, _⟩ => ⟨S8x128x32x1, .i32⟩
  | .hbm, ⟨13, _⟩ => ⟨S8x128x32x1, .i32⟩
  | .hbm, ⟨14, _⟩ => ⟨S128x32x128, .f32⟩
  | .hbm, ⟨15, _⟩ => ⟨S1, .i32⟩
  | .hbm, ⟨16, _⟩ => ⟨S_, .i32⟩
  | .hbm, ⟨17, _⟩ => ⟨S8x128x32x1, .i32⟩
  | .hbm, ⟨18, _⟩ => ⟨S8x128x32x1, .i1⟩
  | .hbm, ⟨19, _⟩ => ⟨S1x1x1x1, .i32⟩
  | .hbm, ⟨20, _⟩ => ⟨S8x128x32x1, .i32⟩
  | .hbm, ⟨21, _⟩ => ⟨S8x128x32x1, .i1⟩
  | .hbm, ⟨22, _⟩ => ⟨S8x128x32x1, .i1⟩
  | .hbm, ⟨23, _⟩ => ⟨S_, .i1⟩
  | .hbm, ⟨24, _⟩ => ⟨S8x128x32, .i1⟩
  | .hbm, ⟨25, _⟩ => ⟨S8x128x32x128, .f32⟩
  | .hbm, ⟨26, _⟩ => ⟨S8x128x32x128, .i1⟩
  | .hbm, ⟨27, _⟩ => ⟨S_, .f32⟩
  | .hbm, ⟨28, _⟩ => ⟨S8x128x32x128, .f32⟩
  | .hbm, ⟨29, _⟩ => ⟨S8x128x32x128, .f32⟩
  | .hbm, ⟨30, _⟩ => ⟨S_, .f32⟩
  | .hbm, ⟨31, _⟩ => ⟨S8x128x128, .f32⟩
  | .hbm, ⟨32, _⟩ => ⟨S_, .f32⟩
  | .hbm, ⟨33, _⟩ => ⟨S8x128x128, .f32⟩
  | .hbm, ⟨34, _⟩ => ⟨S8x128x128, .f32⟩
  | .hbm, ⟨35, _⟩ => ⟨S65536x128, .f32⟩
  | .hbm, ⟨36, _⟩ => ⟨S_, .f32⟩
  | .hbm, ⟨37, _⟩ => ⟨S65536, .f32⟩
  | .hbm, ⟨38, _⟩ => ⟨S8x128x128, .f32⟩
  | .hbm, ⟨39, _⟩ => ⟨S_, .f32⟩
  | .hbm, ⟨40, _⟩ => ⟨S8x128, .f32⟩
  | .hbm, ⟨41, _⟩ => ⟨S8x128x65536, .f32⟩
  | .hbm, ⟨42, _⟩ => ⟨S8x65536x128, .f32⟩
  | .hbm, ⟨43, _⟩ => ⟨S1x65536x1, .f32⟩
  | .hbm, ⟨44, _⟩ => ⟨S8x1x128, .f32⟩
  | .hbm, ⟨45, _⟩ => ⟨S8x65536x128, .f32⟩
  | .hbm, ⟨46, _⟩ => ⟨S8x65536x128, .f32⟩
  | .hbm, ⟨47, _⟩ => ⟨S8x65536x128, .f32⟩
  | .hbm, ⟨48, _⟩ => ⟨S_, .f32⟩
  | .hbm, ⟨49, _⟩ => ⟨S8x65536x128, .f32⟩
  | .hbm, ⟨50, _⟩ => ⟨S8x65536x128, .f32⟩
  | .hbm, ⟨51, _⟩ => ⟨S8x65536x128, .f32⟩
  | .hbm, ⟨52, _⟩ => ⟨S_, .f32⟩
  | .hbm, ⟨53, _⟩ => ⟨S8x65536x128, .f32⟩
  | .hbm, ⟨54, _⟩ => ⟨S8x65536x128, .f32⟩
  | .hbm, ⟨55, _⟩ => ⟨S8x65536x128, .f32⟩
  | .hbm, ⟨56, _⟩ => ⟨S_, .f32⟩
  | .hbm, ⟨57, _⟩ => ⟨S65536x128, .f32⟩
  | .hbm, ⟨58, _⟩ => ⟨S_, .f32⟩
  | .hbm, ⟨59, _⟩ => ⟨S65536x128, .f32⟩
  | .hbm, ⟨60, _⟩ => ⟨S65536x128, .f32⟩
  | .hbm, ⟨61, _⟩ => ⟨S65536x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]

class Facts₀ : Prop where
  shapeCasts_S4096x128_S128x32x128 : S4096x128.ShapeCasts S128x32x128
  bcast_S128x32x128_S1x128x32x128_1_2_3 : S128x32x128.BroadcastsInDim S1x128x32x128 (![1, 2, 3] : Fin 3 → Fin S1x128x32x128.rank)
  bcast_S8x128x32_S8x128x32x1_0_1_2 : S8x128x32.BroadcastsInDim S8x128x32x1 (![0, 1, 2] : Fin 3 → Fin S8x128x32x1.rank)
  bcast_S_S8x128x32x1 : S_.BroadcastsInDim S8x128x32x1 (![] : Fin 0 → Fin S8x128x32x1.rank)
  shapeCasts_S1x128x32x128_S128x32x128 : S1x128x32x128.ShapeCasts S128x32x128
  bcast_S1_S1x1x1x1_3 : S1.BroadcastsInDim S1x1x1x1 (![3] : Fin 1 → Fin S1x1x1x1.rank)
  bcast_S1x1x1x1_S8x128x32x1_0_1_2_3 : S1x1x1x1.BroadcastsInDim S8x128x32x1 (![0, 1, 2, 3] : Fin 4 → Fin S8x128x32x1.rank)
  reducesTo_S8x128x32x1_S8x128x32_d3 : S8x128x32x1.ReducesTo [3] S8x128x32
  h_S_ : 0 < S_.numel
  bcast_S8x128x32_S8x128x32x128_0_1_2 : S8x128x32.BroadcastsInDim S8x128x32x128 (![0, 1, 2] : Fin 3 → Fin S8x128x32x128.rank)
  bcast_S_S8x128x32x128 : S_.BroadcastsInDim S8x128x32x128 (![] : Fin 0 → Fin S8x128x32x128.rank)
  reducesTo_S8x128x32x128_S8x128x128_d2 : S8x128x32x128.ReducesTo [2] S8x128x128
  bcast_S_S8x128x128 : S_.BroadcastsInDim S8x128x128 (![] : Fin 0 → Fin S8x128x128.rank)
  reducesTo_S65536x128_S65536_d1 : S65536x128.ReducesTo [1] S65536
  reducesTo_S8x128x128_S8x128_d2 : S8x128x128.ReducesTo [2] S8x128
  transposes_S8x128x65536_S8x65536x128_0_2_1 : S8x128x65536.Transposes [0, 2, 1] S8x65536x128
  bcast_S65536_S1x65536x1_1 : S65536.BroadcastsInDim S1x65536x1 (![1] : Fin 1 → Fin S1x65536x1.rank)
  bcast_S8x128_S8x1x128_0_2 : S8x128.BroadcastsInDim S8x1x128 (![0, 2] : Fin 2 → Fin S8x1x128.rank)
  bcast_S1x65536x1_S8x65536x128_0_1_2 : S1x65536x1.BroadcastsInDim S8x65536x128 (![0, 1, 2] : Fin 3 → Fin S8x65536x128.rank)
  bcast_S8x1x128_S8x65536x128_0_1_2 : S8x1x128.BroadcastsInDim S8x65536x128 (![0, 1, 2] : Fin 3 → Fin S8x65536x128.rank)
  bcast_S_S8x65536x128 : S_.BroadcastsInDim S8x65536x128 (![] : Fin 0 → Fin S8x65536x128.rank)
  reducesTo_S8x65536x128_S65536x128_d0 : S8x65536x128.ReducesTo [0] S65536x128
  bcast_S_S65536x128 : S_.BroadcastsInDim S65536x128 (![] : Fin 0 → Fin S65536x128.rank)
  gather_S128x32x128_S8x128x32x1_S8x128x32x128_3_1_0_1_1_3_11128_wf : GatherDims.WF S128x32x128 S8x128x32x1 S8x128x32x128 [3] [1] [0] [1] [1] 3 ![1, 1, 128]
  dot_S8x128x128_S65536x128_S8x128x65536_2_1_01_0_n_n_wf : DotDims.WF S8x128x128 S65536x128 S8x128x65536 [2] [1] [0, 1] [0] [] []

variable [Facts₀]

def gather_S128x32x128_S8x128x32x1_S8x128x32x128_3_1_0_1_1_3_11128 : GatherDims S128x32x128 S8x128x32x1 S8x128x32x128 where
  offsetDims := [3]
  collapsedSliceDims := [1]
  operandBatchingDims := [0]
  startIndicesBatchingDims := [1]
  startIndexMap := [1]
  indexVectorDim := 3
  sliceSizes := ![1, 1, 128]
  wf := gather_S128x32x128_S8x128x32x1_S8x128x32x128_3_1_0_1_1_3_11128_wf
def dot_S8x128x128_S65536x128_S8x128x65536_2_1_01_0_n_n : DotDims S8x128x128 S65536x128 S8x128x65536 where
  lhsContracting := [2]
  rhsContracting := [1]
  lhsNonContracting := [0, 1]
  rhsNonContracting := [0]
  lhsBatch := []
  rhsBatch := []
  wf := dot_S8x128x128_S65536x128_S8x128x65536_2_1_01_0_n_n_wf

class Facts : Prop extends Facts₀ where

variable [Facts]
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.DistAlgebra.lean ====
/-
  The arithmetic that the two programs share, on the extended reals.

  A query row q and a prototype p are compared by the distance  √ max(‖q‖² + ‖p‖² − 2·⟨q, p⟩, 0).  One program
  accumulates the eight distances of an entry downwards from zero, one subtraction after another, and scales the result by
  the word of 1/8; the other adds the eight distances to zero, divides by the word of 8 and negates.  Each distance is a
  square root of a maximum with zero, hence never below zero, so no partial sum is −∞ and the negation of a sum is the
  iterated difference; the quotient by 8 is the product with 1/8 on every extended real; and negation commutes with a
  product.  No entry has to be finite for this.
-/
import Idealize.ShloMosaic.PureOps.Ideal

noncomputable section

namespace Cert.ProtoDist

open Idealize.ShloMosaic

/-- The word of `+0.0` denotes zero. -/
theorem word_zero : Ideal.ofBits .f32 0x00000000#32 = 0 := by
  simp [Ideal.ofBits, Ideal.ieee]

/-- The word of `8.0` denotes the real 8. -/
theorem word_eight : Ideal.ofBits .f32 0x41000000#32 = ((8 : ℝ) : EReal) := by
  simp [Ideal.ofBits, Ideal.ieee, -EReal.coe_mul]; norm_num

/-- The word of `0.125` denotes the real 1/8. -/
theorem word_eighth : Ideal.ofBits .f32 0x3E000000#32 = ((1 / 8 : ℝ) : EReal) := by
  simp [Ideal.ofBits, Ideal.ieee, -EReal.coe_mul]; norm_num

/-- The square root of an extended real that is not below zero is not below zero. -/
theorem sqrt_nonneg {x : EReal} (hx : 0 ≤ x) : 0 ≤ Ideal.sqrt x := by
  induction x using EReal.rec with
  | bot => exact absurd hx (by simp)
  | top => simp
  | coe r =>
    have hr : 0 ≤ r := by exact_mod_cast hx
    rw [Ideal.sqrt_coe, if_neg (not_lt.mpr hr)]
    exact_mod_cast Real.sqrt_nonneg r

/-- The distance of a query from a prototype, from their squared norms `q2`, `p2` and their inner product `qp`:
    √ max(q2 + p2 − 2·qp, 0), the factor 2 and the zero kept as the words both programs print. -/
def dist (q2 p2 qp : EReal) : EReal :=
  Ideal.sqrt (max (q2 + p2 - Ideal.ofBits .f32 0x40000000#32 * qp) (Ideal.ofBits .f32 0x00000000#32))

/-- A distance is never below zero. -/
theorem dist_nonneg (q2 p2 qp : EReal) : 0 ≤ dist q2 p2 qp := by
  unfold dist
  refine sqrt_nonneg ?_
  rw [word_zero]
  exact le_max_right _ _

/-- An extended real that is not below zero is not −∞. -/
theorem ne_bot_of_nonneg {x : EReal} (hx : 0 ≤ x) : x ≠ ⊥ :=
  (lt_of_lt_of_le EReal.bot_lt_zero hx).ne'

/-- Prototype c of bootstrap b among the 1024 prototypes laid in a row, bootstrap by bootstrap. -/
def col (c : Fin 128) (b : Fin 8) : Fin 1024 := ⟨c.val + 128 * b.val, by have := c.isLt; have := b.isLt; omega⟩

/-- Eight values subtracted one after another from the word of zero, the result scaled by the word of 1/8. -/
def scaledDifferences (d : Fin 8 → EReal) : EReal :=
  ((((((((Ideal.ofBits .f32 0x00000000#32 - d 0) - d 1) - d 2) - d 3) - d 4) - d 5) - d 6) - d 7)
    * Ideal.ofBits .f32 0x3E000000#32

/-- Eight values, none below zero, subtracted one after another from zero and scaled by the word of 1/8, are the
    negated quotient by the word of 8 of their sum started from zero. -/
theorem scaledDifferences_eq_neg_mean (d : Fin 8 → EReal) (hd : ∀ b, 0 ≤ d b) :
    scaledDifferences d
      = -(Ideal.div (Ideal.ofBits .f32 0x00000000#32 + ∑ b : Fin 8, d b) (Ideal.ofBits .f32 0x41000000#32)) := by
  unfold scaledDifferences
  have s1 : 0 ≤ d 0 + d 1 := add_nonneg (hd 0) (hd 1)
  have s2 : 0 ≤ d 0 + d 1 + d 2 := add_nonneg s1 (hd 2)
  have s3 : 0 ≤ d 0 + d 1 + d 2 + d 3 := add_nonneg s2 (hd 3)
  have s4 : 0 ≤ d 0 + d 1 + d 2 + d 3 + d 4 := add_nonneg s3 (hd 4)
  have s5 : 0 ≤ d 0 + d 1 + d 2 + d 3 + d 4 + d 5 := add_nonneg s4 (hd 5)
  have s6 : 0 ≤ d 0 + d 1 + d 2 + d 3 + d 4 + d 5 + d 6 := add_nonneg s5 (hd 6)
  have neg_sum : -(d 0 + d 1 + d 2 + d 3 + d 4 + d 5 + d 6 + d 7)
      = -d 0 - d 1 - d 2 - d 3 - d 4 - d 5 - d 6 - d 7 := by
    rw [EReal.neg_add (Or.inl (ne_bot_of_nonneg s6)) (Or.inr (ne_bot_of_nonneg (hd 7))),
      EReal.neg_add (Or.inl (ne_bot_of_nonneg s5)) (Or.inr (ne_bot_of_nonneg (hd 6))),
      EReal.neg_add (Or.inl (ne_bot_of_nonneg s4)) (Or.inr (ne_bot_of_nonneg (hd 5))),
      EReal.neg_add (Or.inl (ne_bot_of_nonneg s3)) (Or.inr (ne_bot_of_nonneg (hd 4))),
      EReal.neg_add (Or.inl (ne_bot_of_nonneg s2)) (Or.inr (ne_bot_of_nonneg (hd 3))),
      EReal.neg_add (Or.inl (ne_bot_of_nonneg s1)) (Or.inr (ne_bot_of_nonneg (hd 2))),
      EReal.neg_add (Or.inl (ne_bot_of_nonneg (hd 0))) (Or.inr (ne_bot_of_nonneg (hd 1)))]
  rw [word_zero, word_eighth, word_eight, Ideal.div_coe (by norm_num : (8 : ℝ) ≠ 0), zero_add, zero_sub,
    Fin.sum_univ_eight, ← EReal.neg_mul, neg_sum]

end Cert.ProtoDist

end
-- ==== Proof.BlockEntry.lean ====
/-
  What the kernel body stores, entry by entry, on the extended reals.

  The body loads a block x0 of 4096 query rows, the whole transposed prototype matrix x1 (128 × 1024: column 128·b + c is
  prototype c of bootstrap b) and the row x2 of the 1024 squared prototype norms. It forms the column of squared row norms
  of x0, the product x0 · x1, and for each of the eight bootstraps b the distance of row p from prototype (b, c) out of
  columns 128·b … 128·b + 127 of the product and of the norm row; it subtracts the eight distances from zero one after
  another and scales by the word of 1/8. Here every step is read at an entry (p, c): the squared norm as a sum over the
  row, the product as a sum over the contracted axis, a slice as a shift of the column by its offset.
-/
import proofs.«164677_j83399674953870_2_alg».proof.Proof.Gen.KernelIdeal.Skeleton
import proofs.«164677_j83399674953870_2_alg».proof.Proof.LibKeepdims
import proofs.«164677_j83399674953870_2_alg».proof.Proof.LibPlainDot
import proofs.«164677_j83399674953870_2_alg».proof.Proof.DistAlgebra
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.ProtoDist

/-- The column of squared row norms at row p: the sum of the squares of row p. -/
theorem sqnorm_entry (x0 : Vec Ideal S4096x128 .f32) (p : Fin 4096) :
    k0_pay2 x0 (ix2 p (0 : Fin 1)) = ∑ k : Fin 128, x0 (ix2 p k) * x0 (ix2 p k) := by
  unfold k0_pay2
  refine (shapeCast_a_a1_apply _ _ p 0).trans ?_
  exact multiReduction_add_axis1_apply _ _ _ _ p

/-- The product at (p, j): row p of the block against column j of the transposed prototypes. -/
theorem product_entry (x0 : Vec Ideal S4096x128 .f32) (x1 : Vec Ideal S128x1024 .bf16) (p : Fin 4096) (j : Fin 1024) :
    k0_pay4 x0 x1 (ix2 p j) = ∑ k : Fin 128, x0 (ix2 p k) * x1 (ix2 k j) := by
  unfold k0_pay4
  refine (PlainDot.matmul_zero_apply dot_S4096x128_S128x1024_S4096x1024_1_0_0_1_n_n rfl none _ _ (ix2 p j)).trans ?_
  refine Finset.sum_congr rfl fun k _ => ?_
  exact congrArg (x0 (ix2 p k) * ·) (congrFun (shapeCast_self x1 _) (ix2 k j))

/-- The norm row as the body holds it is the loaded row. -/
theorem normrow_eq (x2 : Vec Ideal S1x1024 .f32) : k0_pay3 x2 = x2 := by
  unfold k0_pay3
  exact shapeCast_self x2 _

/-- One bootstrap's distances as the body computes them, from the norm column v4, the norm row v8 and the product v9:
    the columns from offset o on. -/
def dterm (v4 : FVec Ideal S4096x1 .f32) (v8 : FVec Ideal S1x1024 .f32) (v9 : FVec Ideal S4096x1024 .f32) (o : Nat)
    (h8 : S1x1024.Slices ![0, o] S1x128) (h9 : S4096x1024.Slices ![0, o] S4096x128) : FVec Ideal S4096x128 .f32 :=
  sqrt (maximumf (subf (addf (broadcastTo S4096x128 v4 broadcasts_S4096x1_S4096x128)
      (broadcastTo S4096x128 (extractStridedSlice S1x128 ![0, o] v8 h8) broadcasts_S1x128_S4096x128))
    (mulf (broadcast S4096x128 (Scalar.ofBits .f32 0x40000000#32)) (extractStridedSlice S4096x128 ![0, o] v9 h9)))
    (broadcast S4096x128 (Scalar.ofBits .f32 0x00000000#32)))

/-- At (p, c) such a term is the distance from the norm of row p, the norm at column c + o and the product there. -/
theorem dterm_entry (v4 : FVec Ideal S4096x1 .f32) (v8 : FVec Ideal S1x1024 .f32) (v9 : FVec Ideal S4096x1024 .f32) (o : Nat)
    (h8 : S1x1024.Slices ![0, o] S1x128) (h9 : S4096x1024.Slices ![0, o] S4096x128) (p : Fin 4096) (c : Fin 128)
    (j : Fin 1024) (hj : j.val = o + c.val) :
    dterm v4 v8 v9 o h8 h9 (ix2 p c) = dist (v4 (ix2 p (0 : Fin 1))) (v8 (ix2 (0 : Fin 1) j)) (v9 (ix2 p j)) := by
  have e1 : broadcastTo S4096x128 v4 broadcasts_S4096x1_S4096x128 (ix2 p c) = v4 (ix2 p (0 : Fin 1)) :=
    broadcastTo_a1_ab_apply v4 _ p c
  have e2 : broadcastTo S4096x128 (extractStridedSlice S1x128 ![0, o] v8 h8) broadcasts_S1x128_S4096x128 (ix2 p c)
      = v8 (ix2 (0 : Fin 1) j) := by
    refine (broadcastTo_1b_ab_apply _ _ p c).trans ?_
    refine extractStridedSlice_apply ![0, o] v8 h8 _ (ix2 (0 : Fin 1) j) fun a => ?_
    match a with
    | ⟨0, _⟩ => rfl
    | ⟨1, _⟩ => exact hj
  have e3 : extractStridedSlice S4096x128 ![0, o] v9 h9 (ix2 p c) = v9 (ix2 p j) := by
    refine extractStridedSlice_apply ![0, o] v9 h9 _ (ix2 p j) fun a => ?_
    match a with
    | ⟨0, _⟩ => exact (Nat.zero_add _).symm
    | ⟨1, _⟩ => exact hj
  show Ideal.sqrt (max (broadcastTo S4096x128 v4 broadcasts_S4096x1_S4096x128 (ix2 p c)
      + broadcastTo S4096x128 (extractStridedSlice S1x128 ![0, o] v8 h8) broadcasts_S1x128_S4096x128 (ix2 p c)
      - Ideal.ofBits .f32 0x40000000#32 * extractStridedSlice S4096x128 ![0, o] v9 h9 (ix2 p c))
      (Ideal.ofBits .f32 0x00000000#32)) = _
  rw [e1, e2, e3]
  rfl

/-- The stored block as the eight bootstraps' terms subtracted from zero in order and scaled. -/
theorem stored_eq (x0 : Vec Ideal S4096x128 .f32) (x1 : Vec Ideal S128x1024 .bf16) (x2 : Vec Ideal S1x1024 .f32) :
    k0_pay1 (k0_pay2 x0) (k0_pay3 x2) (k0_pay8 (k0_pay2 x0) (k0_pay3 x2) (k0_pay4 x0 x1) (k0_pay5 x0 x1 x2) (k0_pay6 x0 x1 x2) (k0_pay7 (F := Ideal))) (k0_pay9 (k0_pay4 x0 x1))
      = mulf (subf (subf (subf (subf (subf (subf (subf (subf (broadcast S4096x128 (Scalar.ofBits (F := Ideal) .f32 0x00000000#32))
          (dterm (k0_pay2 x0) (k0_pay3 x2) (k0_pay4 x0 x1) 0 slices_S1x1024_o0_0_S1x128 slices_S4096x1024_o0_0_S4096x128))
          (dterm (k0_pay2 x0) (k0_pay3 x2) (k0_pay4 x0 x1) 128 slices_S1x1024_o0_128_S1x128 slices_S4096x1024_o0_128_S4096x128))
          (dterm (k0_pay2 x0) (k0_pay3 x2) (k0_pay4 x0 x1) 256 slices_S1x1024_o0_256_S1x128 slices_S4096x1024_o0_256_S4096x128))
          (dterm (k0_pay2 x0) (k0_pay3 x2) (k0_pay4 x0 x1) 384 slices_S1x1024_o0_384_S1x128 slices_S4096x1024_o0_384_S4096x128))
          (dterm (k0_pay2 x0) (k0_pay3 x2) (k0_pay4 x0 x1) 512 slices_S1x1024_o0_512_S1x128 slices_S4096x1024_o0_512_S4096x128))
          (dterm (k0_pay2 x0) (k0_pay3 x2) (k0_pay4 x0 x1) 640 slices_S1x1024_o0_640_S1x128 slices_S4096x1024_o0_640_S4096x128))
          (dterm (k0_pay2 x0) (k0_pay3 x2) (k0_pay4 x0 x1) 768 slices_S1x1024_o0_768_S1x128 slices_S4096x1024_o0_768_S4096x128))
          (dterm (k0_pay2 x0) (k0_pay3 x2) (k0_pay4 x0 x1) 896 slices_S1x1024_o0_896_S1x128 slices_S4096x1024_o0_896_S4096x128))
        (broadcast S4096x128 (Scalar.ofBits (F := Ideal) .f32 0x3E000000#32)) := rfl

/-- The distance of row p of the block from prototype (b, c), out of the block, the transposed prototypes and the
    norm row. -/
def entryDist (x0 : Vec Ideal S4096x128 .f32) (x1 : Vec Ideal S128x1024 .bf16) (x2 : Vec Ideal S1x1024 .f32)
    (p : Fin 4096) (c : Fin 128) (b : Fin 8) : EReal :=
  dist (∑ k : Fin 128, x0 (ix2 p k) * x0 (ix2 p k)) (x2 (ix2 (0 : Fin 1) (col c b)))
    (∑ k : Fin 128, x0 (ix2 p k) * x1 (ix2 k (col c b)))

/-- One bootstrap's term at (p, c) is that distance. -/
theorem dterm_block_entry (x0 : Vec Ideal S4096x128 .f32) (x1 : Vec Ideal S128x1024 .bf16) (x2 : Vec Ideal S1x1024 .f32)
    (o : Nat) (h8 : S1x1024.Slices ![0, o] S1x128) (h9 : S4096x1024.Slices ![0, o] S4096x128) (p : Fin 4096) (c : Fin 128)
    (b : Fin 8) (hb : o = 128 * b.val) :
    dterm (k0_pay2 x0) (k0_pay3 x2) (k0_pay4 x0 x1) o h8 h9 (ix2 p c) = entryDist x0 x1 x2 p c b := by
  refine (dterm_entry _ _ _ o h8 h9 p c (col c b) (by show c.val + 128 * b.val = o + c.val; omega)).trans ?_
  unfold entryDist
  rw [sqnorm_entry, product_entry, normrow_eq]

/-- THE STORED VALUE AT AN ENTRY: the eight distances subtracted from zero in order, times the word of 1/8. -/
theorem stored_entry (x0 : Vec Ideal S4096x128 .f32) (x1 : Vec Ideal S128x1024 .bf16) (x2 : Vec Ideal S1x1024 .f32)
    (p : Fin 4096) (c : Fin 128) :
    k0_pay1 (k0_pay2 x0) (k0_pay3 x2) (k0_pay8 (k0_pay2 x0) (k0_pay3 x2) (k0_pay4 x0 x1) (k0_pay5 x0 x1 x2) (k0_pay6 x0 x1 x2) (k0_pay7 (F := Ideal))) (k0_pay9 (k0_pay4 x0 x1)) (ix2 p c)
      = scaledDifferences (entryDist x0 x1 x2 p c) := by
  rw [stored_eq]
  show ((((((((Ideal.ofBits .f32 0x00000000#32
      - dterm (k0_pay2 x0) (k0_pay3 x2) (k0_pay4 x0 x1) 0 slices_S1x1024_o0_0_S1x128 slices_S4096x1024_o0_0_S4096x128 (ix2 p c))
      - dterm (k0_pay2 x0) (k0_pay3 x2) (k0_pay4 x0 x1) 128 slices_S1x1024_o0_128_S1x128 slices_S4096x1024_o0_128_S4096x128 (ix2 p c))
      - dterm (k0_pay2 x0) (k0_pay3 x2) (k0_pay4 x0 x1) 256 slices_S1x1024_o0_256_S1x128 slices_S4096x1024_o0_256_S4096x128 (ix2 p c))
      - dterm (k0_pay2 x0) (k0_pay3 x2) (k0_pay4 x0 x1) 384 slices_S1x1024_o0_384_S1x128 slices_S4096x1024_o0_384_S4096x128 (ix2 p c))
      - dterm (k0_pay2 x0) (k0_pay3 x2) (k0_pay4 x0 x1) 512 slices_S1x1024_o0_512_S1x128 slices_S4096x1024_o0_512_S4096x128 (ix2 p c))
      - dterm (k0_pay2 x0) (k0_pay3 x2) (k0_pay4 x0 x1) 640 slices_S1x1024_o0_640_S1x128 slices_S4096x1024_o0_640_S4096x128 (ix2 p c))
      - dterm (k0_pay2 x0) (k0_pay3 x2) (k0_pay4 x0 x1) 768 slices_S1x1024_o0_768_S1x128 slices_S4096x1024_o0_768_S4096x128 (ix2 p c))
      - dterm (k0_pay2 x0) (k0_pay3 x2) (k0_pay4 x0 x1) 896 slices_S1x1024_o0_896_S1x128 slices_S4096x1024_o0_896_S4096x128 (ix2 p c))
      * Ideal.ofBits .f32 0x3E000000#32 = _
  rw [dterm_block_entry x0 x1 x2 0 _ _ p c 0 rfl, dterm_block_entry x0 x1 x2 128 _ _ p c 1 rfl,
    dterm_block_entry x0 x1 x2 256 _ _ p c 2 rfl, dterm_block_entry x0 x1 x2 384 _ _ p c 3 rfl,
    dterm_block_entry x0 x1 x2 512 _ _ p c 4 rfl, dterm_block_entry x0 x1 x2 640 _ _ p c 5 rfl,
    dterm_block_entry x0 x1 x2 768 _ _ p c 6 rfl, dterm_block_entry x0 x1 x2 896 _ _ p c 7 rfl]
  rfl

/-- The same at any index of the block, by its coordinates. -/
theorem stored_at (x0 : Vec Ideal S4096x128 .f32) (x1 : Vec Ideal S128x1024 .bf16) (x2 : Vec Ideal S1x1024 .f32)
    (y : S4096x128.Idx) :
    k0_pay1 (k0_pay2 x0) (k0_pay3 x2) (k0_pay8 (k0_pay2 x0) (k0_pay3 x2) (k0_pay4 x0 x1) (k0_pay5 x0 x1 x2) (k0_pay6 x0 x1 x2) (k0_pay7 (F := Ideal))) (k0_pay9 (k0_pay4 x0 x1)) y
      = scaledDifferences (entryDist x0 x1 x2 (y 0) (y 1)) := by
  obtain ⟨p, c, rfl⟩ : ∃ (p : Fin 4096) (c : Fin 128), y = ix2 p c := ⟨y 0, y 1, eq_ix2 y⟩
  exact stored_entry x0 x1 x2 p c

end Cert.KernelIdeal.Block

end
-- ==== Proof.KernelArray.lean ====
/-
  From blocks to the array: what the kernel leaves in its result array, as one function of the three arrays its windows
  read — the queries Q (65536 × 128), the transposed prototypes PT (128 × 1024) and the row P2 of squared prototype norms.

  Grid point t takes rows 4096·t … 4096·t + 4095 of Q, all of PT and all of P2, and writes back rows 4096·t … of the
  result. Entry (p, c) of what it stores depends on row p of its block only, that is on row 4096·t + p of Q; so the blocks
  are the restrictions of one function of (Q, PT, P2), and since the sixteen row bands cover the result array, that array
  ends holding this function.
-/
import proofs.«164677_j83399674953870_2_alg».proof.Proof.Gen.KernelIdeal.Frame
import proofs.«164677_j83399674953870_2_alg».proof.Proof.BlockEntry
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Cert.ProtoDist Cert.KernelIdeal.Block
open Idealize.ShloMosaic.Pipeline (Dat)

variable (m : (ℓ : Loc nD τ sig) → Buf (Elt Ideal) ℓ) (ρ : Dev nD → PrngReg)

/-- The distance of query row q from prototype (b, c), out of the three arrays the windows read. -/
def kdist (Q : S65536x128.Idx → EReal) (PT : S128x1024.Idx → EReal) (P2 : S1x1024.Idx → EReal)
    (q : Fin 65536) (c : Fin 128) (b : Fin 8) : EReal :=
  dist (∑ k : Fin 128, Q (ix2 q k) * Q (ix2 q k)) (P2 (ix2 (0 : Fin 1) (col c b)))
    (∑ k : Fin 128, Q (ix2 q k) * PT (ix2 k (col c b)))

/-- The result array as one function of the three arrays: at (q, c) the eight distances of row q from the prototypes
    (·, c), subtracted from zero in order and scaled. -/
def value (Q : S65536x128.Idx → EReal) (PT : S128x1024.Idx → EReal) (P2 : S1x1024.Idx → EReal) :
    S65536x128.Idx → EReal :=
  fun i => scaledDifferences (kdist Q PT P2 (i 0) (i 1))

theorem zero_offsets : (![0, 0] : Fin 2 → Nat) = fun _ => 0 := funext fun a => by fin_cases a <;> rfl

/-- The printed index maps over the sixteen grid points: the query window and the result window sit at row block t,
    column block 0; the other two windows at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The query window's block at point t is rows 4096·t … of the query array. -/
theorem query_block (c : Dev nD) (t : Fin cfg0.N) (p : Fin 4096) (k : Fin 128) (q : Fin 65536)
    (hq : q.val = t.val * 4096 + p.val) :
    (iblk m c 0 t : Vec Ideal S4096x128 .f32) (ix2 p k) = (V m c main_arg2 : S65536x128.Idx → EReal) (ix2 q k) := by
  obtain ⟨e0, e1, -⟩ := index_facts t
  unfold iblk
  rw [View.read_apply]
  show V m c main_arg2 _ = V m c main_arg2 _
  congr 1
  funext a
  apply Fin.ext
  match a with
  | ⟨0, _⟩ => show win0_0.index t (0 : Fin 2) * 4096 + 1 * p.val = q.val; omega
  | ⟨1, _⟩ => show win0_0.index t (1 : Fin 2) * 128 + 1 * k.val = k.val; omega

/-- The transposed prototypes' window holds the whole array at every point. -/
theorem protos_block (c : Dev nD) (t : Fin cfg0.N) (k : Fin 128) (j : Fin 1024) :
    (iblk m c 1 t : Vec Ideal S128x1024 .bf16) (ix2 k j) = (V m c main_v12 : S128x1024.Idx → EReal) (ix2 k j) := by
  obtain ⟨-, -, e0, e1, -⟩ := index_facts t
  unfold iblk
  rw [View.read_apply]
  show V m c main_v12 _ = V m c main_v12 _
  congr 1
  funext a
  apply Fin.ext
  match a with
  | ⟨0, _⟩ => show win0_1.index t (0 : Fin 2) * 128 + 1 * k.val = k.val; omega
  | ⟨1, _⟩ => show win0_1.index t (1 : Fin 2) * 1024 + 1 * j.val = j.val; omega

/-- The norm row's window holds the whole row at every point. -/
theorem norms_block (c : Dev nD) (t : Fin cfg0.N) (u : Fin 1) (j : Fin 1024) :
    (iblk m c 2 t : Vec Ideal S1x1024 .f32) (ix2 u j) = (V m c main_v10 : S1x1024.Idx → EReal) (ix2 u j) := by
  obtain ⟨-, -, -, -, e0, e1, -⟩ := index_facts t
  unfold iblk
  rw [View.read_apply]
  show V m c main_v10 _ = V m c main_v10 _
  congr 1
  funext a
  apply Fin.ext
  match a with
  | ⟨0, _⟩ => show win0_2.index t (0 : Fin 2) * 1 + 1 * u.val = u.val; omega
  | ⟨1, _⟩ => show win0_2.index t (1 : Fin 2) * 1024 + 1 * j.val = j.val; omega

/-- A distance computed from three blocks is the distance computed from three arrays, when row p of the first block is
    row q of the first array and the other two blocks are the other two arrays. -/
theorem entryDist_eq_kdist (x0 : Vec Ideal S4096x128 .f32) (x1 : Vec Ideal S128x1024 .bf16) (x2 : Vec Ideal S1x1024 .f32)
    (Q : S65536x128.Idx → EReal) (PT : S128x1024.Idx → EReal) (P2 : S1x1024.Idx → EReal)
    (p : Fin 4096) (cc : Fin 128) (q : Fin 65536) (b : Fin 8)
    (h0 : ∀ k : Fin 128, x0 (ix2 p k) = Q (ix2 q k)) (h1 : ∀ (k : Fin 128) (j : Fin 1024), x1 (ix2 k j) = PT (ix2 k j))
    (h2 : ∀ j : Fin 1024, x2 (ix2 (0 : Fin 1) j) = P2 (ix2 (0 : Fin 1) j)) :
    entryDist x0 x1 x2 p cc b = kdist Q PT P2 q cc b := by
  unfold entryDist kdist
  rw [h2]
  congr 1
  · exact Finset.sum_congr rfl fun k _ => by rw [h0]
  · exact Finset.sum_congr rfl fun k _ => by rw [h0, h1]

/-- A distance computed from the blocks at point t is the distance computed from the arrays, at the row of the array
    under the block's row. -/
theorem entryDist_block (c : Dev nD) (t : Fin cfg0.N) (p : Fin 4096) (cc : Fin 128) (q : Fin 65536)
    (hq : q.val = t.val * 4096 + p.val) (b : Fin 8) :
    entryDist (iblk m c 0 t) (iblk m c 1 t) (iblk m c 2 t) p cc b
      = kdist (V m c main_arg2) (V m c main_v12) (V m c main_v10) q cc b :=
  entryDist_eq_kdist (iblk m c 0 t) (iblk m c 1 t) (iblk m c 2 t) (V m c main_arg2) (V m c main_v12) (V m c main_v10) p cc q b
    (fun k => query_block m c t p k q hq) (fun k j => protos_block m c t k j) (fun j => norms_block m c t 0 j)

/-- WHAT POINT t WRITES BACK is block t of `value` of the arrays as the region finds them. -/
theorem flushed_eq (c : Dev nD) (t : Fin cfg0.N) :
    (dats m 0 c).flushed 3 t
      = ((cfg0.win 3).blk t).view.read (Elt Ideal) (value (V m c main_arg2) (V m c main_v12) (V m c main_v10)) := by
  show (cfg0.win 3).cut (grid0.coords t) ((dats m 0 c).after 3 t) = _
  rw [after0_3]
  unfold out0_3
  rw [View.canon_unit_zero zero_offsets]
  simp only [View.ld_unit_zero (S := S4096x128) zero_offsets, View.ld_unit_zero (S := S128x1024) zero_offsets,
    View.ld_unit_zero (S := S1x1024) zero_offsets]
  obtain ⟨-, -, -, -, -, -, e0, e1⟩ := index_facts t
  funext y
  refine (stored_at (iblk m c 0 t) (iblk m c 1 t) (iblk m c 2 t) y).trans ?_
  show _ = scaledDifferences (kdist (V m c main_arg2) (V m c main_v12) (V m c main_v10)
    ((((cfg0.win 3).blk t).view.emb y) 0) ((((cfg0.win 3).blk t).view.emb y) 1))
  refine congrArg scaledDifferences (funext fun b => ?_)
  have hy0 : (y 0).val < 4096 := (y 0).isLt
  have hy1 : (y 1).val < 128 := (y 1).isLt
  have hr : ((((cfg0.win 3).blk t).view.emb y) 0).val = t.val * 4096 + (y 0).val := by
    show win0_3.index t (0 : Fin 2) * 4096 + 1 * (y 0).val = _; omega
  have hc : (((cfg0.win 3).blk t).view.emb y) 1 = y 1 := by
    apply Fin.ext
    show win0_3.index t (1 : Fin 2) * 128 + 1 * (y 1).val = (y 1).val; omega
  rw [hc]
  exact entryDist_block m c t (y 0) (y 1) _ hr b

/-- An index of the result array is in point t's block iff its coordinates are in the block's ranges. -/
theorem mem_block (t : Fin cfg0.N) (i : S65536x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v13).slice (win0_3.rect t)).set ↔ _
  rw [View.set_slice_whole, Rect.mem_set_unit]
  exact Iff.rfl

/-- Every index of the result array lies in the block of the point its row band names. -/
theorem covered (i : S65536x128.Idx) :
    ∃ t : Fin cfg0.N, (cfg0.win 3).flush t = true ∧ i ∈ ((cfg0.win 3).blk t).view.set := by
  have hi0 : (i 0).val < 65536 := (i 0).isLt
  have hi1 : (i 1).val < 128 := (i 1).isLt
  have hN : cfg0.N = 16 := N_0
  let t : Fin cfg0.N := ⟨(i 0).val / 4096, by rw [hN]; omega⟩
  obtain ⟨-, -, -, -, -, -, e0, e1⟩ := index_facts t
  have ht : t.val = (i 0).val / 4096 := rfl
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE RESULT ARRAY after the run is `value` of the arrays the windows read. -/
theorem final (c : Dev nD) :
    (dats m 0 c).arrAt 3 cfg0.N = value (V m c main_arg2) (V m c main_v12) (V m c main_v10) :=
  (dats m 0 c).arrAt_eq_of_cover 3 _ (fun t _ => flushed_eq m c t) covered

/-- The kernel's run, read: the result array at `value`, the four arguments as launched. -/
theorem run : θ_run defs (onTc (τ := τ) (main (F := Ideal))) ⟨m, fun _ => 0, ρ⟩ fun r => ∀ c : Dev nD,
      r.2.mem ((c : Thread nD τ).loc main_v13) = value (V m c main_arg2) (V m c main_v12) (V m c main_v10)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats m 0 c).arrAt_in 0 rfl _).trans ((A_eq m c 0).trans (V_main_arg2 m c))),
      ((h c).2 main_arg3 (Pipeline.mem_restRefs_of main_arg3 (by decide) (by decide))).trans (V_main_arg3 m c)⟩)
    (run_main m ρ)

end Cert.KernelIdeal.Array

end
-- ==== Proof.HostSide.lean ====
/-
  The two arrays the kernel's host side writes before its region, as the region finds them: the transposed prototypes
  and the row of their squared norms, both made from the prototypes — which the host computes by the very operations the
  reference applies (recast of the support set by class, gather of the bootstrapped shots, mean over the shots). That
  shared chain is carried as one term, the reference's own stage, and never opened.
-/
import proofs.«164677_j83399674953870_2_alg».proof.Proof.Gen.KernelIdeal.Frame
import proofs.«164677_j83399674953870_2_alg».proof.Proof.ReadPatched
import Idealize.ShloMosaic.Lib.StableHlo.Run

set_option maxRecDepth 65536

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The prototypes, as the reference's stage of the support set and the bootstrap indices. -/
abbrev protos (c : Dev nD) : S8x128x128.Idx → EReal :=
  Cert.ReferenceIdeal.ReadP.val_main_v6 (F := Ideal) (m ((c.tc : Thread nD τ).loc main_arg0)) (m ((c.tc : Thread nD τ).loc main_arg3))

set_option maxHeartbeats 2000000 in
/-- The transposed prototypes' array: the prototypes recast as 1024 rows, their format changed, transposed. -/
theorem transposed_eq (c : Dev nD) :
    (V m c main_v12 : S128x1024.Idx → EReal)
      = transpose S128x1024 [1, 0] (truncf (F := Ideal) .bf16 (shapeCast S1024x128 (protos m c) shapeCasts_S8x128x128_S1024x128) bitsLt_bf16_f32) transposes_S1024x128_S128x1024_1_0 := by
  dsimp only [V]
  simp only [hostOps0, hostOps0_1, hostOps0_2, List.flatten_cons, List.flatten_nil, List.append_nil, List.cons_append,
    List.nil_append]
  after_results_simp
  rfl

set_option maxHeartbeats 2000000 in
/-- The norm row's array: the host's sums of the squares of the recast prototypes' rows, laid as a row. -/
theorem normrow_eq (c : Dev nD) :
    (V m c main_v10 : S1x1024.Idx → EReal)
      = shapeCast S1x1024 (Host.reduceAdd (F := Ideal)
          (mulf (shapeCast S1024x128 (protos m c) shapeCasts_S8x128x128_S1024x128) (shapeCast S1024x128 (protos m c) shapeCasts_S8x128x128_S1024x128))
          (constant S_ .f32 0x00000000#32) reducesTo_S1024x128_S1024_d1 h_S_) shapeCasts_S1024_S1x1024 := by
  dsimp only [V]
  simp only [hostOps0, hostOps0_1, hostOps0_2, List.flatten_cons, List.flatten_nil, List.append_nil, List.cons_append,
    List.nil_append]
  after_results_simp
  rfl

end Cert.KernelIdeal.HostSide

end
-- ==== Proof.ProtoLayout.lean ====
/-
  The two arrays the kernel's host side hands to its region, read at an entry from the array PR (8 × 128 × 128) of
  prototypes they are made from.

  PR is recast as 1024 rows of 128 features, row 128·b + c being prototype (b, c). The transposed copy (128 × 1024, its
  change of float format the identity on the extended reals) holds feature k of prototype (b, c) at (k, 128·b + c). The
  row of squared norms holds at column 128·b + c the host's sum, started from the zero word, of the squares of that row.
-/
import proofs.«164677_j83399674953870_2_alg».proof.Proof.DistAlgebra
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ProtoDist.Layout

open Idealize.ShloMosaic Idealize.ShloMosaic.ValueIdx Cert.ProtoDist

/-- Row 128·b + c of the recast array is prototype (b, c). -/
theorem flat_entry (PR : (⟨3, ![8, 128, 128]⟩ : Shape).Idx → EReal)
    (h : (⟨3, ![8, 128, 128]⟩ : Shape).ShapeCasts ⟨2, ![1024, 128]⟩) (b : Fin 8) (c : Fin 128) (k : Fin 128) :
    shapeCast ⟨2, ![1024, 128]⟩ PR h (ix2 (col c b) k) = PR (ix3 b c k) :=
  shapeCast_apply PR h _ _ (by
    rw [Shape.rowMajor_val_three, Shape.rowMajor_val_two]
    show (b.val * 128 + c.val) * 128 + k.val = (c.val + 128 * b.val) * 128 + k.val
    omega)

/-- The transposed copy at (k, 128·b + c) is feature k of prototype (b, c). -/
theorem transposed_entry (PR : (⟨3, ![8, 128, 128]⟩ : Shape).Idx → EReal)
    (h : (⟨3, ![8, 128, 128]⟩ : Shape).ShapeCasts ⟨2, ![1024, 128]⟩) (hb : FTy.bf16.bits < FTy.f32.bits)
    (ht : (⟨2, ![1024, 128]⟩ : Shape).Transposes [1, 0] ⟨2, ![128, 1024]⟩) (b : Fin 8) (c : Fin 128) (k : Fin 128) :
    transpose ⟨2, ![128, 1024]⟩ [1, 0] (truncf (F := Ideal) .bf16 (shapeCast ⟨2, ![1024, 128]⟩ PR h) hb) ht (ix2 k (col c b))
      = PR (ix3 b c k) :=
  (transpose_ix2_apply _ ht k (col c b)).trans (flat_entry PR h b c k)

/-- The row of squared norms at column 128·b + c: the zero word plus the sum of the squares of prototype (b, c). -/
theorem normrow_entry (PR : (⟨3, ![8, 128, 128]⟩ : Shape).Idx → EReal)
    (h : (⟨3, ![8, 128, 128]⟩ : Shape).ShapeCasts ⟨2, ![1024, 128]⟩)
    (hred : (⟨2, ![1024, 128]⟩ : Shape).ReducesTo [1] ⟨1, ![1024]⟩) (hu : 0 < (⟨0, ![]⟩ : Shape).numel)
    (hr : (⟨1, ![1024]⟩ : Shape).ShapeCasts ⟨2, ![1, 1024]⟩) (u : Fin 1) (b : Fin 8) (c : Fin 128) :
    shapeCast ⟨2, ![1, 1024]⟩
        (Host.reduceAdd (F := Ideal) (mulf (shapeCast ⟨2, ![1024, 128]⟩ PR h) (shapeCast ⟨2, ![1024, 128]⟩ PR h))
          (constant ⟨0, ![]⟩ .f32 0x00000000#32) hred hu) hr (ix2 u (col c b))
      = Ideal.ofBits .f32 0x00000000#32 + ∑ k : Fin 128, PR (ix3 b c k) * PR (ix3 b c k) := by
  refine (shapeCast_apply _ hr (ix2 u (col c b)) (ix1 (col c b)) (by
    have hu0 : u.val = 0 := by omega
    rw [Shape.rowMajor_val_one, Shape.rowMajor_val_two]
    show (col c b).val = u.val * 1024 + (col c b).val
    omega)).trans ?_
  rw [hostReduceAdd_apply, Ideal.hostReduceAdd_single hred (by decide)]
  refine congrArg₂ (· + ·) rfl (Finset.sum_congr rfl fun k _ => ?_)
  have e : ((by decide : (⟨2, ![1024, 128]⟩ : Shape).Reduces [1] ⟨1, ![1024]⟩).lift (ix1 (col c b)) k) = ix2 (col c b) k :=
    funext fun a => Fin.ext (by match a with | ⟨0, _⟩ => rfl | ⟨1, _⟩ => rfl)
  rw [e]
  exact congrArg₂ (· * ·) (flat_entry PR h b c k) (flat_entry PR h b c k)

end Cert.ProtoDist.Layout

end
-- ==== Proof.Logits.lean ====
/-
  The value both programs compute, as one function of the query array Q (65536 × 128) and the array PR (8 × 128 × 128) of
  bootstrapped prototypes: entry (q, c) is the negated mean over the eight bootstraps b of the distance of query row q
  from prototype (b, c), each distance formed from the two squared norms and the inner product, every sum started from
  the word of zero as the host's reductions start.
-/
import proofs.«164677_j83399674953870_2_alg».proof.Proof.DistAlgebra
import Idealize.ShloMosaic.Lib.ValueIdx

noncomputable section

namespace Cert.ProtoDist

open Idealize.ShloMosaic Idealize.ShloMosaic.ValueIdx

/-- The distance of query row q from prototype (b, c). -/
def pdist (Q : (⟨2, ![65536, 128]⟩ : Shape).Idx → EReal) (PR : (⟨3, ![8, 128, 128]⟩ : Shape).Idx → EReal)
    (q : Fin 65536) (c : Fin 128) (b : Fin 8) : EReal :=
  dist (Ideal.ofBits .f32 0x00000000#32 + ∑ k : Fin 128, Q (ix2 q k) * Q (ix2 q k))
    (Ideal.ofBits .f32 0x00000000#32 + ∑ k : Fin 128, PR (ix3 b c k) * PR (ix3 b c k))
    (∑ k : Fin 128, PR (ix3 b c k) * Q (ix2 q k))

/-- The logits: minus the mean distance over the eight bootstraps. -/
def logits (Q : (⟨2, ![65536, 128]⟩ : Shape).Idx → EReal) (PR : (⟨3, ![8, 128, 128]⟩ : Shape).Idx → EReal) :
    (⟨2, ![65536, 128]⟩ : Shape).Idx → EReal :=
  fun i => -(Ideal.div (Ideal.ofBits .f32 0x00000000#32 + ∑ b : Fin 8, pdist Q PR (i 0) (i 1) b)
    (Ideal.ofBits .f32 0x41000000#32))

end Cert.ProtoDist

end
-- ==== Proof.RefEntry.lean ====
/-
  The reference, read entry by entry: its result array is `logits` of the query array and of the prototypes it computes
  on the way. The squared norms are sums over a row; the inner products come out of one contraction over the feature axis,
  laid out (bootstrap, class, query) and transposed to (bootstrap, query, class); the broadcasts repeat a query's norm over
  bootstraps and classes and a prototype's norm over queries; the mean is a sum over the bootstrap axis divided by 8.
-/
import proofs.«164677_j83399674953870_2_alg».proof.Proof.ReadPatched
import proofs.«164677_j83399674953870_2_alg».proof.Proof.Logits

noncomputable section

namespace Cert.ReferenceIdeal.Entry

open Cert.ReferenceIdeal Cert.ReferenceIdeal.ReadP Idealize.ShloMosaic Idealize.ShloMosaic.ValueIdx Cert.ProtoDist

/-- The reference's result is `logits` of the queries and of the prototypes the reference computes. -/
theorem result_eq (x0 : (⟨S4096x128, .f32⟩ : BufTy).Contents (Elt Ideal)) (x2 : (⟨S65536x128, .f32⟩ : BufTy).Contents (Elt Ideal))
    (x3 : (⟨S8x128x32, .i32⟩ : BufTy).Contents (Elt Ideal)) :
    val_main_v27 (F := Ideal) x0 x2 x3 = logits x2 (val_main_v6 (F := Ideal) x0 x3) := by
  funext i
  obtain ⟨q, c, rfl⟩ : ∃ (q : Fin 65536) (c : Fin 128), i = ix2 q c := ⟨i 0, i 1, eq_ix2 i⟩
  have hq : ∀ (b : Fin 8) (k : Fin 128),
      idx_main_v8 (idx_main_v13 (idx_main_v15 (idx_main_v24 (ix2 q c) b))) k = ix2 q k := fun b k =>
    funext fun a => Fin.ext (by match a with | ⟨0, _⟩ => rfl | ⟨1, _⟩ => rfl)
  have hp : ∀ (b : Fin 8) (k : Fin 128),
      idx_main_v10 (idx_main_v14 (idx_main_v16 (idx_main_v24 (ix2 q c) b))) k = ix3 b c k := fun b k =>
    funext fun a => Fin.ext (by match a with | ⟨0, _⟩ => rfl | ⟨1, _⟩ => rfl | ⟨2, _⟩ => rfl)
  have hl : ∀ (b : Fin 8) (k : Fin 128),
      lidx_main_v11 (idx_main_v12 (idx_main_v24 (ix2 q c) b)) k = ix3 b c k := fun b k =>
    funext fun a => Fin.ext (by match a with | ⟨0, _⟩ => rfl | ⟨1, _⟩ => rfl | ⟨2, _⟩ => rfl)
  have hr : ∀ (b : Fin 8) (k : Fin 128),
      ridx_main_v11 (idx_main_v12 (idx_main_v24 (ix2 q c) b)) k = ix2 q k := fun b k =>
    funext fun a => Fin.ext (by match a with | ⟨0, _⟩ => rfl | ⟨1, _⟩ => rfl)
  rw [val_main_v27_apply, val_main_v26_apply, val_main_v24_apply, val_main_v25_apply, val_main_cst_6_apply,
    val_main_cst_5_apply]
  simp only [val_main_v23_apply, val_main_v22_apply, val_main_v21_apply, val_main_cst_4_apply, val_main_v20_apply,
    val_main_v17_apply, val_main_v15_apply, val_main_v13_apply, val_main_v8_apply, val_main_cst_1_apply, val_main_v7_apply,
    val_main_v16_apply, val_main_v14_apply, val_main_v10_apply, val_main_cst_2_apply, val_main_v9_apply,
    val_main_v19_apply, val_main_v18_apply, val_main_cst_3_apply, val_main_v12_apply, val_main_v11_apply,
    hq, hp, hl, hr,
    Ideal.ofBits_def, Ideal.addf_def, Ideal.subf_def, Ideal.mulf_def, Ideal.maximumf_def, Ideal.hostUnary_sqrt_def,
    Ideal.hostDivf_def, Ideal.hostNegf_def, Ideal.negf_def]
  rfl

end Cert.ReferenceIdeal.Entry

end
-- ==== Proof.Bridge.lean ====
/-
  The bridge: the kernel's result array and the reference's are the same function of the queries and the prototypes.

  The kernel reads the prototypes through two arrays its host side made from them — the transposed copy and the row of
  squared norms; read at an entry these give back the prototypes' features and the host's sums of their squares, so each
  of the kernel's distances is the reference's (the inner product with its factors in the other order, the query's squared
  norm without the zero the host's sum starts from). The kernel's scaled iterated difference of the eight distances is
  then the reference's negated mean, because no distance is below zero.
-/
import proofs.«164677_j83399674953870_2_alg».proof.Proof.KernelArray
import proofs.«164677_j83399674953870_2_alg».proof.Proof.HostSide
import proofs.«164677_j83399674953870_2_alg».proof.Proof.ProtoLayout
import proofs.«164677_j83399674953870_2_alg».proof.Proof.Logits
import proofs.«164677_j83399674953870_2_alg».proof.Proof.RefEntry
import proofs.«164677_j83399674953870_2_alg».proof.Proof.RunPatched

noncomputable section

namespace Cert.Proof.Bridge

open Idealize.ShloMosaic Idealize.ShloMosaic.TcCoe Idealize.SL.Sem Idealize.ShloMosaic.ValueIdx Cert.ProtoDist
open Cert.KernelIdeal.Array

/-- A distance the kernel forms from the arrays made of the prototypes is the reference's distance. -/
theorem kdist_eq_pdist (Q : (⟨2, ![65536, 128]⟩ : Shape).Idx → EReal) (PR : (⟨3, ![8, 128, 128]⟩ : Shape).Idx → EReal)
    (h : (⟨3, ![8, 128, 128]⟩ : Shape).ShapeCasts ⟨2, ![1024, 128]⟩) (hb : FTy.bf16.bits < FTy.f32.bits)
    (ht : (⟨2, ![1024, 128]⟩ : Shape).Transposes [1, 0] ⟨2, ![128, 1024]⟩)
    (hred : (⟨2, ![1024, 128]⟩ : Shape).ReducesTo [1] ⟨1, ![1024]⟩) (hu : 0 < (⟨0, ![]⟩ : Shape).numel)
    (hr : (⟨1, ![1024]⟩ : Shape).ShapeCasts ⟨2, ![1, 1024]⟩) (q : Fin 65536) (c : Fin 128) (b : Fin 8) :
    kdist Q (transpose ⟨2, ![128, 1024]⟩ [1, 0] (truncf (F := Ideal) .bf16 (shapeCast ⟨2, ![1024, 128]⟩ PR h) hb) ht)
        (shapeCast ⟨2, ![1, 1024]⟩ (Host.reduceAdd (F := Ideal)
          (mulf (shapeCast ⟨2, ![1024, 128]⟩ PR h) (shapeCast ⟨2, ![1024, 128]⟩ PR h))
          (constant ⟨0, ![]⟩ .f32 0x00000000#32) hred hu) hr) q c b
      = pdist Q PR q c b := by
  unfold kdist pdist
  rw [Layout.normrow_entry PR h hred hu hr 0 b c]
  have e : (∑ k : Fin 128, Q (ix2 q k) * transpose ⟨2, ![128, 1024]⟩ [1, 0]
        (truncf (F := Ideal) .bf16 (shapeCast ⟨2, ![1024, 128]⟩ PR h) hb) ht (ix2 k (col c b)))
      = ∑ k : Fin 128, PR (ix3 b c k) * Q (ix2 q k) :=
    Finset.sum_congr rfl fun k _ => by rw [Layout.transposed_entry PR h hb ht b c k, mul_comm]
  rw [e, word_zero, zero_add, zero_add]

/-- The kernel's result array, on the arrays made of the prototypes, is the logits. -/
theorem value_eq_logits (Q : (⟨2, ![65536, 128]⟩ : Shape).Idx → EReal) (PR : (⟨3, ![8, 128, 128]⟩ : Shape).Idx → EReal)
    (h : (⟨3, ![8, 128, 128]⟩ : Shape).ShapeCasts ⟨2, ![1024, 128]⟩) (hb : FTy.bf16.bits < FTy.f32.bits)
    (ht : (⟨2, ![1024, 128]⟩ : Shape).Transposes [1, 0] ⟨2, ![128, 1024]⟩)
    (hred : (⟨2, ![1024, 128]⟩ : Shape).ReducesTo [1] ⟨1, ![1024]⟩) (hu : 0 < (⟨0, ![]⟩ : Shape).numel)
    (hr : (⟨1, ![1024]⟩ : Shape).ShapeCasts ⟨2, ![1, 1024]⟩) :
    value Q (transpose ⟨2, ![128, 1024]⟩ [1, 0] (truncf (F := Ideal) .bf16 (shapeCast ⟨2, ![1024, 128]⟩ PR h) hb) ht)
        (shapeCast ⟨2, ![1, 1024]⟩ (Host.reduceAdd (F := Ideal)
          (mulf (shapeCast ⟨2, ![1024, 128]⟩ PR h) (shapeCast ⟨2, ![1024, 128]⟩ PR h))
          (constant ⟨0, ![]⟩ .f32 0x00000000#32) hred hu) hr)
      = logits Q PR := by
  funext i
  unfold value logits
  rw [scaledDifferences_eq_neg_mean _ (fun b => by unfold kdist; exact dist_nonneg _ _ _)]
  exact congrArg (fun s => -(Ideal.div (Ideal.ofBits .f32 0x00000000#32 + s) (Ideal.ofBits .f32 0x41000000#32)))
    (Finset.sum_congr rfl fun b _ => kdist_eq_pdist Q PR h hb ht hred hu hr (i 0) (i 1) b)

/-- `value` respects equal arrays. -/
theorem value_congr {Q Q' : Cert.KernelIdeal.S65536x128.Idx → EReal} {PT PT' : Cert.KernelIdeal.S128x1024.Idx → EReal}
    {P2 P2' : Cert.KernelIdeal.S1x1024.Idx → EReal} (h0 : Q = Q') (h1 : PT = PT') (h2 : P2 = P2') :
    value Q PT P2 = value Q' PT' P2' := by subst h0 h1 h2; rfl

section Kernel

open Cert.KernelIdeal Cert.KernelIdeal.Gen

/-- The idealized kernel's run: its result array at the logits of the launched queries and of the prototypes, the arguments
    as launched. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v13)
          = logits (m ((c : Thread nD τ).loc main_arg2)) (Cert.KernelIdeal.HostSide.protos m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      ((value_congr (V_main_arg2 m c) (Cert.KernelIdeal.HostSide.transposed_eq m c) (Cert.KernelIdeal.HostSide.normrow_eq m c)).trans
        (value_eq_logits _ _ _ _ _ _ _ _)), (h c).2⟩)
    (Cert.KernelIdeal.Array.run m ρ)

end Kernel

section Reference

open Cert.ReferenceIdeal

/-- The idealized reference's run: its result array at the logits of the launched queries and of the prototypes it
    computes, the arguments as launched. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = logits (m ((c.tc : Thread nD τ).loc main_arg2))
              (Cert.ReferenceIdeal.ReadP.val_main_v6 (F := Ideal) (m ((c.tc : Thread nD τ).loc main_arg0)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans
      ((Cert.ReferenceIdeal.ReadP.val_main_v27_eq m c).trans (Cert.ReferenceIdeal.Entry.result_eq _ _ _)), (h c).2⟩)
    (Cert.ReferenceIdeal.ValueP.run (F := Ideal) m ρ)

end Reference

end Cert.Proof.Bridge

end
-- ==== Proof.lean ====
/-
  The certificate of the prototypical-network logits: for 65536 query rows q and 128 classes c, minus the mean over eight
  bootstraps b of the distance  √ max(‖q‖² + ‖p(b,c)‖² − 2·⟨q, p(b,c)⟩, 0)  from the bootstrapped class prototype p(b,c).

  Both programs compute the prototypes on the host by the same operations. The kernel then takes one 65536 × 1024 product
  of the queries against all 1024 prototypes, sixteen row bands at a time, slices it bootstrap by bootstrap, subtracts the
  eight distances from zero and scales by 1/8; the reference contracts per bootstrap, adds the distances, divides by 8 and
  negates. On the extended reals a change of float format is the identity, a matrix product into zero is the host's
  contraction, a lane sum is the host's sum, and the two accumulations agree because a distance is never below zero.
  The frames of the two kernels are the generated ones; the reference's frame is its run with the result dropped.
-/
import proofs.«164677_j83399674953870_2_alg».proof.Defs
import proofs.«164677_j83399674953870_2_alg».proof.Proof.Gen.Kernel
import proofs.«164677_j83399674953870_2_alg».proof.Proof.Gen.Kernel.Frame
import proofs.«164677_j83399674953870_2_alg».proof.Proof.Gen.KernelIdeal
import proofs.«164677_j83399674953870_2_alg».proof.Proof.Gen.KernelIdeal.Frame
import proofs.«164677_j83399674953870_2_alg».proof.Proof.Gen.ReferenceIdeal
import proofs.«164677_j83399674953870_2_alg».proof.Proof.Gen.Pre_finite_inputs
import proofs.«164677_j83399674953870_2_alg».proof.Proof.RunPatched
import proofs.«164677_j83399674953870_2_alg».proof.Proof.Bridge

noncomputable section

namespace Cert.Proof

open Idealize.ShloMosaic Idealize.SL.Sem Cert.ProtoDist

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- Both idealized programs end with the logits of the launched queries and of the prototypes; the memories agree on the
    arguments, so the two arrays are equal. -/
theorem algebraic : Cert.algebraic_KernelIdeal_ReferenceIdeal := by
  intro m ρ m' ρ' _ hagree
  refine ⟨_, Cert.Proof.Bridge.kernel_run m ρ, ?_⟩
  refine (θ_run Cert.ReferenceIdeal.defs _ _).mono (fun _ h c => ⟨(h c).1.trans ?_, (h c).2⟩)
    (Cert.Proof.Bridge.reference_run m' ρ')
  rw [(hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
